-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layers.lean ====
/-
  The two graph-convolution layers as functions of the value each matrix product delivers.

  Both programs compute  z = relu(Â · relu(Â · (x·W₁) + b₁) · W₂ + b₂)  where Â is the degree-normalised adjacency
  (with self loops) applied as gather – scale – scatter-add over the edge list: for an edge list `e`, `srcIdx e` and
  `dstIdx e` are its two rows followed by 0 … N−1 (the self loops); `degree e` counts the edges into each node,
  `degInvSqrt e` is its inverse square root where the degree is positive and zero elsewhere, and `edgeNorm e` is the
  product of that quantity at an edge's two ends. `layer1 h e b` is relu of (the scatter-add along `dstIdx e` of the rows
  `h[srcIdx e]` scaled by `edgeNorm e`) + b over 128 columns, `layer2` the same over 64 columns. Everything here is the
  host's operations applied to whole arrays; none of it is opened anywhere: the two programs differ only in the value
  `h` they hand to each layer, and that is where the proof does its work.
-/
import proofs.«103599_j23871428231490_1_alg».proof.Proof.Gen.ReferenceIdeal

noncomputable section

namespace Cert.Gcn

open Idealize.ShloMosaic Cert.ReferenceIdeal Cert.ReferenceIdeal.Gen

variable {F : FTy → Type} [FloatOps F]

/-- The source node of every edge: row 0 of the edge list, then the self loops 0 … N−1. -/
def srcIdx (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The destination node of every edge: row 1 of the edge list, then the self loops 0 … N−1. -/
def dstIdx (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node index as a gather's start index: a negative one is taken from the end (N added), as a column. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of edges into each node: a scatter-add of ones along the destinations. -/
def degree (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIdx x1)) (broadcastInDim S1700000 ![] bcast_S_S1700000 (constant S_ .f32 0x3F800000#32))

/-- The inverse square root of the degree where it is positive, zero elsewhere. -/
def degInvSqrt (x1 : (⟨S2x1600000, .i32⟩ : BufTy).Contents (Elt F)) : (⟨S100000, .f32⟩ : BufTy).Contents (Elt F) :=
  select (cmpf (F := F) .ogt (degree x1) (broadcastInDim S100000 ![] bcast_S_S100000 (constant S_ .f32 0x00000000#32))) (Host.rsqrt (degree x1)) (broadcastInDim S100000 ![] bcast_S_S100000 (id (constant S_ .f32 0x00000000#32)))

/-- An edge's weight: the inverse square roots of the degrees of its two ends, multiplied. -/
def edgeNorm (x1 : (⟨S2x1600000, .i32⟩ : BufTy).Contents (Elt F)) : (⟨S1700000, .f32⟩ : BufTy).Contents (Elt F) :=
  mulf (Host.gather gather_S100000_S1700000x1_S1700000_n_0_n_n_0_1_1 (degInvSqrt x1) (wrapIdx (srcIdx x1))) (Host.gather gather_S100000_S1700000x1_S1700000_n_0_n_n_0_1_1 (degInvSqrt x1) (wrapIdx (dstIdx x1)))

/-- The first layer after its matrix product `h0`: gather the source rows, scale by the edge weights, add them up
    per destination node, add the bias, clip below at zero. -/
def layer1 (h0 : (⟨S100000x128, .f32⟩ : BufTy).Contents (Elt F)) (x1 : (⟨S2x1600000, .i32⟩ : BufTy).Contents (Elt F)) (x3 : (⟨S128, .f32⟩ : BufTy).Contents (Elt F)) : (⟨S100000x128, .f32⟩ : BufTy).Contents (Elt F) :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIdx x1)) (mulf (Host.gather gather_S100000x128_S1700000x1_S1700000x128_1_0_n_n_0_1_1128 h0 (wrapIdx (srcIdx x1))) (broadcastInDim S1700000x128 ![0, 1] bcast_S1700000x1_S1700000x128_0_1 (broadcastInDim S1700000x1 ![0] bcast_S1700000_S1700000x1_0 (edgeNorm x1))))) (broadcastInDim S100000x128 ![0, 1] bcast_S1x128_S100000x128_0_1 (broadcastInDim S1x128 ![1] bcast_S128_S1x128_1 x3))) (broadcastInDim S100000x128 ![] bcast_S_S100000x128 (constant S_ .f32 0x00000000#32))

/-- The second layer after its matrix product `p2`: the same over 64 columns. -/
def layer2 (p2 : (⟨S100000x64, .f32⟩ : BufTy).Contents (Elt F)) (x1 : (⟨S2x1600000, .i32⟩ : BufTy).Contents (Elt F)) (x5 : (⟨S64, .f32⟩ : BufTy).Contents (Elt F)) : (⟨S100000x64, .f32⟩ : BufTy).Contents (Elt F) :=
  maximumf (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstIdx x1)) (mulf (Host.gather gather_S100000x64_S1700000x1_S1700000x64_1_0_n_n_0_1_164 p2 (wrapIdx (srcIdx x1))) (broadcastInDim S1700000x64 ![0, 1] bcast_S1700000x1_S1700000x64_0_1 (broadcastInDim S1700000x1 ![0] bcast_S1700000_S1700000x1_0 (edgeNorm x1))))) (broadcastInDim S100000x64 ![0, 1] bcast_S1x64_S100000x64_0_1 (broadcastInDim S1x64 ![1] bcast_S64_S1x64_1 x5))) (broadcastInDim S100000x64 ![] bcast_S_S100000x64 (constant S_ .f32 0x00000000#32))

/-- The whole network with each matrix product the host's `dot_general`: the function both programs compute. -/
def net (x0 : (⟨S100000x512, .f32⟩ : BufTy).Contents (Elt F)) (x1 : (⟨S2x1600000, .i32⟩ : BufTy).Contents (Elt F)) (x2 : (⟨S512x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) : (⟨S100000x64, .f32⟩ : BufTy).Contents (Elt F) :=
  layer2 (Host.dotGeneral dot_S100000x128_S128x64_S100000x64_1_0_0_1_n_n none
    (layer1 (Host.dotGeneral dot_S100000x512_S512x128_S100000x128_1_0_0_1_n_n none x0 x2) x1 x3) x4) x1 x5

end Cert.Gcn

end
-- ==== Proof.RefValue.lean ====
/-
  The reference computes the network.

  The reference's result, read back from its run as one composed term of the arguments, is the network of
  Layers.lean with each matrix product the host's `dot_general`: the definitions there are that term cut at the two
  products and at the quantities the two layers share, so unfolding them gives the term back.
-/
import proofs.«103599_j23871428231490_1_alg».proof.Proof.RefRun
import proofs.«103599_j23871428231490_1_alg».proof.Proof.Layers

noncomputable section

namespace Cert.ReferenceIdeal.NetValue

open Cert.ReferenceIdeal Cert.ReferenceIdeal.Gen Idealize.ShloMosaic Idealize.ShloMosaic.TcCoe Idealize.SL.Sem

variable {F : FTy → Type} [FloatOps F]

set_option maxRecDepth 16384 in
/-- The run's result term is the network of the arguments' launch contents. -/
theorem result_eq (m : (ℓ : Loc nD τ sig) → Buf (Elt F) ℓ) (c : Dev nD) :
    Cert.ReferenceIdeal.ValueP.res_main_v65 m c
      = Cert.Gcn.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v65 Cert.Gcn.net Cert.Gcn.layer2 Cert.Gcn.layer1 Cert.Gcn.edgeNorm
    Cert.Gcn.degInvSqrt Cert.Gcn.degree Cert.Gcn.wrapIdx Cert.Gcn.srcIdx Cert.Gcn.dstIdx
  rfl

end Cert.ReferenceIdeal.NetValue

end
-- ==== Proof.KernelRun.lean ====
/-
  The idealized kernel's run with its result named.

  @main is host operations, a first pallas_call, host operations, a second pallas_call, host operations. The buffer
  contents at each of those boundaries are a fold from the launch memory (`Gen.W0` … `Gen.W9`: a stretch of host
  operations applies them in order; a pallas_call replaces its three arrays by what its write-backs leave and keeps
  every other buffer). Every weakly fair execution terminates without a fault in a state whose unscoped buffers hold
  the last boundary's contents `Gen.W9`: read at the result buffer this names the result, read at an argument it is the
  argument as launched.
-/
import proofs.«103599_j23871428231490_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched: the segments' run from the launch state, the last thread state read
    against the final memory, the result buffer and each argument being unscoped buffers. -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.GcnRun

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.Blocks0.lean ====
/-
  The first pallas_call computes the whole product x · W₁.

  Grid point t (of 50) loads rows 2000·t … 2000·t + 1999 of the left array (all 512 columns) and the whole right array,
  and writes their product into rows 2000·t … 2000·t + 1999 of the output. At the extended reals the rounding to bf16 is
  the identity and the matrix unit's product into a zero accumulator is the plain sum over the contracted axis, so entry
  (2000·t + p, q) of the output is Σₖ left(2000·t + p, k) · right(k, q): block t of the host's `dot_general` of the two
  whole arrays. The 50 blocks tile the output, so after the call it IS that `dot_general`.
-/
import proofs.«103599_j23871428231490_1_alg».proof.Proof.Gen.KernelIdeal.Frame
import proofs.«103599_j23871428231490_1_alg».proof.Proof.LibPlainDot
import Idealize.ShloMosaic.Lib.Pipeline.Value
import Idealize.ShloMosaic.Lib.ValueIdx
import Idealize.ShloMosaic.PureOps.Ideal.Laws

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The zero offset of every access of the body. -/
theorem hz : (![0, 0] : Fin 2 → Nat) = fun _ => 0 := funext fun a => by fin_cases a <;> rfl

/-- The body's stored value at entry (p, q) of its block: the sum over k of the loaded left block at (p, k) times the
    loaded right block at (k, q). -/
theorem pay_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) := by
  unfold k0_pay1
  refine (Ideal.matmul_constant_zero_apply _ none _ _ (ix2 p q)).trans ?_
  exact Cert.PlainDot.contraction_eq (M := 2000) (K := 512) (N := 128) x0 x1 p q

/-- The printed index maps over the grid: the left and the output windows move down one block of rows per point and
    stay at column block 0; the right window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left window's block at point t is entry (2000·t + p, k) of its array. -/
theorem emb_left (t : Fin cfg0.N) (p : Fin 2000) (k : Fin 512) (ht : t.val < 50) :
    ((cfg0.win 0).blk t).view.emb (ix2 p k) = ix2 (⟨t.val * 2000 + p.val, by omega⟩ : Fin 100000) k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right window's block at any point is its whole array. -/
theorem emb_right (t : Fin cfg0.N) (k : Fin 512) (q : Fin 128) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 512 + 1 * k.val = k.val; omega
  | ⟨1, _⟩ => show win0_1.index t (1 : Fin 2) * 128 + 1 * q.val = q.val; omega

/-- Entry (p, q) of the output window's block at point t is entry (2000·t + p, q) of its array. -/
theorem emb_out (t : Fin cfg0.N) (p : Fin 2000) (q : Fin 128) (ht : t.val < 50) :
    ((cfg0.win 2).blk t).view.emb (ix2 p q) = ix2 (⟨t.val * 2000 + p.val, by omega⟩ : Fin 100000) q := by
  obtain ⟨-, -, -, -, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

variable (V : (c : Dev nD) → (b : Ref sig .tc) → Buf (Elt Ideal) ((c : Thread nD τ).loc b))

/-- The host's product of the two whole arrays as the region finds them. -/
def whole (c : Dev nD) : S100000x128.Idx → EReal :=
  Host.dotGeneral (F := Ideal) (φ₁ := .f32) (φ₂ := .f32) (DotDims.plain 100000 512 128) none
    (V c main_arg0 : FVec Ideal S100000x512 .f32) (V c main_arg2 : FVec Ideal S512x128 .f32)

theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  funext j
  obtain ⟨p, q, rfl⟩ : ∃ (p : Fin 2000) (q : Fin 128), j = ix2 p q := ⟨j 0, j 1, eq_ix2 j⟩
  show k0_pay1 (iblk0 V c 0 t) (iblk0 V c 1 t) (ix2 p q) = whole V c (((cfg0.win 2).blk t).view.emb (ix2 p q))
  have ht : t.val < 50 := lt_of_lt_of_eq t.isLt N_0
  rw [pay_apply, emb_out t p q ht]
  unfold whole
  refine Eq.trans ?_ (Cert.PlainDot.dotGeneral_apply (M := 100000) (K := 512) (N := 128) none .single
    (V c main_arg0) (V c main_arg2) ⟨t.val * 2000 + p.val, by omega⟩ q).symm
  refine Finset.sum_congr rfl fun k _ => ?_
  have hl : iblk0 V c 0 t (ix2 p k) = V c main_arg0 (ix2 (⟨t.val * 2000 + p.val, by omega⟩ : Fin 100000) k) := by
    show V c main_arg0 (((cfg0.win 0).blk t).view.emb (ix2 p k)) = _
    rw [emb_left t p k ht]
  have hr : iblk0 V c 1 t (ix2 k q) = V c main_arg2 (ix2 k q) := by
    show V c main_arg2 (((cfg0.win 1).blk t).view.emb (ix2 k q)) = _
    rw [emb_right t k q]
  rw [hl, hr]

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- The 50 blocks of 2000 rows tile the 100000 rows: row r is in the block of point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 2000 < cfg0.N := lt_of_lt_of_eq (by omega : (i 0).val / 2000 < 50) N_0.symm
  refine ⟨⟨(i 0).val / 2000, hN⟩, flush0_2 _, ?_⟩
  rw [mem_blk]
  obtain ⟨-, -, -, -, e4, e5⟩ := idx_facts ⟨(i 0).val / 2000, hN⟩
  have e4' : win0_2.index ⟨(i 0).val / 2000, hN⟩ (0 : Fin 2) = (i 0).val / 2000 := e4
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

/-- After the call the output array is the host's product of the two whole input arrays. -/
theorem final (c : Dev nD) : (dat0 V c).arrAt 2 cfg0.N = whole V c :=
  (dat0 V c).arrAt_eq_of_cover 2 (whole V c) (fun t _ => flushed_eq V c t) cover

end Cert.KernelIdeal.Product0

end
-- ==== Proof.Blocks1.lean ====
/-
  The second pallas_call computes the whole product h · W₂.

  Grid point t (of 50) loads rows 2000·t … 2000·t + 1999 of the left array (all 128 columns) and the whole right array,
  and writes their product into rows 2000·t … 2000·t + 1999 of the output. The body first casts the loaded block to its
  own shape (the identity), then, at the extended reals, the rounding to bf16 is the identity and the matrix unit's
  product into a zero accumulator is the plain sum over the contracted axis: entry (2000·t + p, q) of the output is
  Σₖ left(2000·t + p, k) · right(k, q), block t of the host's `dot_general` of the two whole arrays. The 50 blocks tile
  the output, so after the call it IS that `dot_general`.
-/
import proofs.«103599_j23871428231490_1_alg».proof.Proof.Gen.KernelIdeal.Frame
import proofs.«103599_j23871428231490_1_alg».proof.Proof.LibPlainDot
import Idealize.ShloMosaic.Lib.Pipeline.Value
import Idealize.ShloMosaic.Lib.ValueIdx
import Idealize.ShloMosaic.PureOps.Ideal.Laws

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The zero offset of every access of the body. -/
theorem hz : (![0, 0] : Fin 2 → Nat) = fun _ => 0 := funext fun a => by fin_cases a <;> rfl

/-- The body's stored value at entry (p, q) of its block: the sum over k of the loaded left block at (p, k) times the
    loaded right block at (k, q). -/
theorem pay_apply (x0 : Vec Ideal S2000x128 .f32) (x1 : Vec Ideal S128x64 .f32) (p : Fin 2000) (q : Fin 64) :
    k1_pay1 x0 x1 (ix2 p q) = ∑ k : Fin 128, x0 (ix2 p k) * x1 (ix2 k q) := by
  unfold k1_pay1
  rw [shapeCast_self]
  refine (Ideal.matmul_constant_zero_apply _ none _ _ (ix2 p q)).trans ?_
  exact Cert.PlainDot.contraction_eq (M := 2000) (K := 128) (N := 64) x0 x1 p q

/-- The printed index maps over the grid: the left and the output windows move down one block of rows per point and
    stay at column block 0; the right window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left window's block at point t is entry (2000·t + p, k) of its array. -/
theorem emb_left (t : Fin cfg1.N) (p : Fin 2000) (k : Fin 128) (ht : t.val < 50) :
    ((cfg1.win 0).blk t).view.emb (ix2 p k) = ix2 (⟨t.val * 2000 + p.val, by omega⟩ : Fin 100000) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- The right window's block at any point is its whole array. -/
theorem emb_right (t : Fin cfg1.N) (k : Fin 128) (q : Fin 64) :
    ((cfg1.win 1).blk t).view.emb (ix2 k q) = ix2 k q := by
  obtain ⟨-, -, e2, e3, -⟩ := idx_facts t
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- Entry (p, q) of the output window's block at point t is entry (2000·t + p, q) of its array. -/
theorem emb_out (t : Fin cfg1.N) (p : Fin 2000) (q : Fin 64) (ht : t.val < 50) :
    ((cfg1.win 2).blk t).view.emb (ix2 p q) = ix2 (⟨t.val * 2000 + p.val, by omega⟩ : Fin 100000) q := by
  obtain ⟨-, -, -, -, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 64 + 1 * q.val = q.val; omega

variable (V : (c : Dev nD) → (b : Ref sig .tc) → Buf (Elt Ideal) ((c : Thread nD τ).loc b))

/-- The host's product of the two whole arrays as the region finds them. -/
def whole (c : Dev nD) : S100000x64.Idx → EReal :=
  Host.dotGeneral (F := Ideal) (φ₁ := .f32) (φ₂ := .f32) (DotDims.plain 100000 128 64) none
    (V c main_v47 : FVec Ideal S100000x128 .f32) (V c main_arg4 : FVec Ideal S128x64 .f32)

theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x64) hz]
  funext j
  obtain ⟨p, q, rfl⟩ : ∃ (p : Fin 2000) (q : Fin 64), j = ix2 p q := ⟨j 0, j 1, eq_ix2 j⟩
  show k1_pay1 (iblk1 V c 0 t) (iblk1 V c 1 t) (ix2 p q) = whole V c (((cfg1.win 2).blk t).view.emb (ix2 p q))
  have ht : t.val < 50 := lt_of_lt_of_eq t.isLt N_1
  rw [pay_apply, emb_out t p q ht]
  unfold whole
  refine Eq.trans ?_ (Cert.PlainDot.dotGeneral_apply (M := 100000) (K := 128) (N := 64) none .single
    (V c main_v47) (V c main_arg4) ⟨t.val * 2000 + p.val, by omega⟩ q).symm
  refine Finset.sum_congr rfl fun k _ => ?_
  have hl : iblk1 V c 0 t (ix2 p k) = V c main_v47 (ix2 (⟨t.val * 2000 + p.val, by omega⟩ : Fin 100000) k) := by
    show V c main_v47 (((cfg1.win 0).blk t).view.emb (ix2 p k)) = _
    rw [emb_left t p k ht]
  have hr : iblk1 V c 1 t (ix2 k q) = V c main_arg4 (ix2 k q) := by
    show V c main_arg4 (((cfg1.win 1).blk t).view.emb (ix2 k q)) = _
    rw [emb_right t k q]
  rw [hl, hr]

/-- An index of the output array is in point t's block iff each coordinate is in the block's range on its axis. -/
theorem mem_blk (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v48).slice (win1_2.rect t)).set ↔ _
  rw [View.set_slice_whole, Rect.mem_set_unit]
  exact Iff.rfl

/-- The 50 blocks of 2000 rows tile the 100000 rows: row r is in the block of point r / 2000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 2000 < cfg1.N := lt_of_lt_of_eq (by omega : (i 0).val / 2000 < 50) N_1.symm
  refine ⟨⟨(i 0).val / 2000, hN⟩, flush1_2 _, ?_⟩
  rw [mem_blk]
  obtain ⟨-, -, -, -, e4, e5⟩ := idx_facts ⟨(i 0).val / 2000, hN⟩
  have e4' : win1_2.index ⟨(i 0).val / 2000, hN⟩ (0 : Fin 2) = (i 0).val / 2000 := e4
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    omega
  | ⟨1, _⟩ =>
    show win1_2.index ⟨(i 0).val / 2000, hN⟩ (1 : Fin 2) * 64 ≤ (i 1).val
      ∧ (i 1).val < win1_2.index ⟨(i 0).val / 2000, hN⟩ (1 : Fin 2) * 64 + 64
    omega

/-- After the call the output array is the host's product of the two whole input arrays. -/
theorem final (c : Dev nD) : (dat1 V c).arrAt 2 cfg1.N = whole V c :=
  (dat1 V c).arrAt_eq_of_cover 2 (whole V c) (fun t _ => flushed_eq V c t) cover

end Cert.KernelIdeal.Product1

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KernelValue.lean ====
/-
  The idealized kernel computes the network.

  Its run ends with the result buffer at the last boundary's contents (KernelRun.lean). Read backwards through @main:
  the last stretch of host operations is the second layer applied to the second pallas_call's output; that output is
  the host's product h · W₂ of the call's input arrays as it finds them (Blocks1.lean); h is what the middle stretch
  computes, the first layer applied to the first pallas_call's output; and that output is the product x · W₁ of the
  arguments (Blocks0.lean). The edge list's source and destination indices and the edge weights are computed once,
  before the first call, and no later stretch and neither call writes their buffers, so every layer reads the same
  three arrays, and the arguments are never written at all. Put together, the result is the network of Layers.lean —
  the function the reference computes — of the arguments' launch contents.
-/
import proofs.«103599_j23871428231490_1_alg».proof.Proof.Gen.KernelIdeal.Frame
import proofs.«103599_j23871428231490_1_alg».proof.Proof.Blocks0
import proofs.«103599_j23871428231490_1_alg».proof.Proof.Blocks1
import proofs.«103599_j23871428231490_1_alg».proof.Proof.Layers
import proofs.«103599_j23871428231490_1_alg».proof.Proof.LibHostRead

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo
open Cert.HostRead

variable (m : (ℓ : Loc nD τ sig) → Buf (Elt Ideal) ℓ) (ρ : Dev nD → PrngReg) (c : Dev nD)

/-! ## What the first pallas_call finds: the host operations before it, read at the buffers later code reads -/

/-- No host operation before the first call writes `main_arg0`. -/
theorem entry_main_arg0 : W3 m ρ c (Proc.devRef .tc main_arg0) = m ((c : Thread nD τ).loc main_arg0) := by
  show after hostOps0_2 (after hostOps0_1 (after hostOps0 (W0 m ρ c))) (Proc.devRef .tc main_arg0) = _
  after_results_simp <;> rfl

/-- No host operation before the first call writes `main_arg2`. -/
theorem entry_main_arg2 : W3 m ρ c (Proc.devRef .tc main_arg2) = m ((c : Thread nD τ).loc main_arg2) := by
  show after hostOps0_2 (after hostOps0_1 (after hostOps0 (W0 m ρ c))) (Proc.devRef .tc main_arg2) = _
  after_results_simp <;> rfl

/-- No host operation before the first call writes `main_arg3`. -/
theorem entry_main_arg3 : W3 m ρ c (Proc.devRef .tc main_arg3) = m ((c : Thread nD τ).loc main_arg3) := by
  show after hostOps0_2 (after hostOps0_1 (after hostOps0 (W0 m ρ c))) (Proc.devRef .tc main_arg3) = _
  after_results_simp <;> rfl

/-- No host operation before the first call writes `main_arg4`. -/
theorem entry_main_arg4 : W3 m ρ c (Proc.devRef .tc main_arg4) = m ((c : Thread nD τ).loc main_arg4) := by
  show after hostOps0_2 (after hostOps0_1 (after hostOps0 (W0 m ρ c))) (Proc.devRef .tc main_arg4) = _
  after_results_simp <;> rfl

/-- No host operation before the first call writes `main_arg5`. -/
theorem entry_main_arg5 : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

/-- The source indices, from the edge list. -/
theorem entry_src : W3 m ρ c (Proc.devRef .tc main_v3) = Cert.Gcn.srcIdx (F := Ideal) (m ((c : Thread nD τ).loc main_arg1)) := by
  show after hostOps0_2 (after hostOps0_1 (after hostOps0 (W0 m ρ c))) (Proc.devRef .tc main_v3) = _
  read_results
  rfl

/-- The destination indices, from the edge list. -/
theorem entry_dst : W3 m ρ c (Proc.devRef .tc main_v6) = Cert.Gcn.dstIdx (F := Ideal) (m ((c : Thread nD τ).loc main_arg1)) := by
  show after hostOps0_2 (after hostOps0_1 (after hostOps0 (W0 m ρ c))) (Proc.devRef .tc main_v6) = _
  read_results
  rfl

set_option maxHeartbeats 1000000 in
/-- The edge weights, from the edge list. -/
theorem entry_norm : W3 m ρ c (Proc.devRef .tc main_v29) = Cert.Gcn.edgeNorm (F := Ideal) (m ((c : Thread nD τ).loc main_arg1)) := by
  show after hostOps0_2 (after hostOps0_1 (after hostOps0 (W0 m ρ c))) (Proc.devRef .tc main_v29) = _
  read_results
  rfl

/-! ## Across the first pallas_call -/

/-- The first call's output is the product of the first and the third argument. -/
theorem product0 : W4 m ρ c (Proc.devRef .tc main_v30) = Host.dotGeneral (F := Ideal) (φ₁ := .f32) (φ₂ := .f32) (DotDims.plain 100000 512 128) none (m ((c : Thread nD τ).loc main_arg0)) (m ((c : Thread nD τ).loc main_arg2)) := by
  refine (W4_arr m ρ c 2).trans ((Product0.final (V3 m ρ) c).trans ?_)
  unfold Product0.whole
  exact congrArg₂ (fun a b => Host.dotGeneral (F := Ideal) (φ₁ := .f32) (φ₂ := .f32) (DotDims.plain 100000 512 128) none a b) (entry_main_arg0 m ρ c) (entry_main_arg2 m ρ c)

/-! ## The host operations between the two calls -/

set_option maxHeartbeats 1000000 in
/-- The second call's left operand is the first layer applied to the first call's output. -/
theorem middle : W6 m ρ c (Proc.devRef .tc main_v47)
    = Cert.Gcn.layer1 (F := Ideal) (W4 m ρ c (Proc.devRef .tc main_v30)) (m ((c : Thread nD τ).loc main_arg1)) (m ((c : Thread nD τ).loc main_arg3)) := by
  show after hostOps1_1 (after hostOps1 (W4 m ρ c)) (Proc.devRef .tc main_v47) = _
  read_results
  rw [W4_of_ne m ρ c main_v3 (by decide), W4_of_ne m ρ c main_v6 (by decide), W4_of_ne m ρ c main_v29 (by decide),
    W4_of_ne m ρ c main_arg3 (by decide), entry_src, entry_dst, entry_norm, entry_main_arg3]
  rfl

/-- Neither the first call nor the operations between the calls write `main_v3`. -/
theorem kept_src : W6 m ρ c (Proc.devRef .tc main_v3) = Cert.Gcn.srcIdx (F := Ideal) (m ((c : Thread nD τ).loc main_arg1)) := by
  refine Eq.trans ?_ ((W4_of_ne m ρ c main_v3 (by decide)).trans (entry_src m ρ c))
  show after hostOps1_1 (after hostOps1 (W4 m ρ c)) (Proc.devRef .tc main_v3) = _
  after_results_simp

/-- Neither the first call nor the operations between the calls write `main_v6`. -/
theorem kept_dst : W6 m ρ c (Proc.devRef .tc main_v6) = Cert.Gcn.dstIdx (F := Ideal) (m ((c : Thread nD τ).loc main_arg1)) := by
  refine Eq.trans ?_ ((W4_of_ne m ρ c main_v6 (by decide)).trans (entry_dst m ρ c))
  show after hostOps1_1 (after hostOps1 (W4 m ρ c)) (Proc.devRef .tc main_v6) = _
  after_results_simp

/-- Neither the first call nor the operations between the calls write `main_v29`. -/
theorem kept_norm : W6 m ρ c (Proc.devRef .tc main_v29) = Cert.Gcn.edgeNorm (F := Ideal) (m ((c : Thread nD τ).loc main_arg1)) := by
  refine Eq.trans ?_ ((W4_of_ne m ρ c main_v29 (by decide)).trans (entry_norm m ρ c))
  show after hostOps1_1 (after hostOps1 (W4 m ρ c)) (Proc.devRef .tc main_v29) = _
  after_results_simp

/-- Neither the first call nor the operations between the calls write `main_arg4`. -/
theorem kept_arg4 : W6 m ρ c (Proc.devRef .tc main_arg4) = (m ((c : Thread nD τ).loc main_arg4)) := by
  refine Eq.trans ?_ ((W4_of_ne m ρ c main_arg4 (by decide)).trans (entry_main_arg4 m ρ c))
  show after hostOps1_1 (after hostOps1 (W4 m ρ c)) (Proc.devRef .tc main_arg4) = _
  after_results_simp

/-- Neither the first call nor the operations between the calls write `main_arg5`. -/
theorem kept_arg5 : W6 m ρ c (Proc.devRef .tc main_arg5) = (m ((c : Thread nD τ).loc main_arg5)) := by
  refine Eq.trans ?_ ((W4_of_ne m ρ c main_arg5 (by decide)).trans (entry_main_arg5 m ρ c))
  show after hostOps1_1 (after hostOps1 (W4 m ρ c)) (Proc.devRef .tc main_arg5) = _
  after_results_simp

/-! ## Across the second pallas_call -/

/-- The second call's output is the product of its left operand as it finds it and the fifth argument. -/
theorem product1 : W7 m ρ c (Proc.devRef .tc main_v48) = Host.dotGeneral (F := Ideal) (φ₁ := .f32) (φ₂ := .f32) (DotDims.plain 100000 128 64) none (W6 m ρ c (Proc.devRef .tc main_v47)) (m ((c : Thread nD τ).loc main_arg4)) := by
  refine (W7_arr m ρ c 2).trans ((Product1.final (V6 m ρ) c).trans ?_)
  unfold Product1.whole
  exact congrArg (fun b => Host.dotGeneral (F := Ideal) (φ₁ := .f32) (φ₂ := .f32) (DotDims.plain 100000 128 64) none (W6 m ρ c (Proc.devRef .tc main_v47)) b) (kept_arg4 m ρ c)

/-! ## The host operations after the second call -/

set_option maxHeartbeats 1000000 in
/-- The result is the second layer applied to the second call's output. -/
theorem last : W9 m ρ c (Proc.devRef .tc main_v65)
    = Cert.Gcn.layer2 (F := Ideal) (W7 m ρ c (Proc.devRef .tc main_v48)) (m ((c : Thread nD τ).loc main_arg1)) (m ((c : Thread nD τ).loc main_arg5)) := by
  show after hostOps2_1 (after hostOps2 (W7 m ρ c)) (Proc.devRef .tc main_v65) = _
  read_results
  rw [W7_of_ne m ρ c main_v3 (by decide), W7_of_ne m ρ c main_v6 (by decide), W7_of_ne m ρ c main_v29 (by decide),
    W7_of_ne m ρ c main_arg5 (by decide), kept_src, kept_dst, kept_norm, kept_arg5]
  rfl

/-! ## The result -/

/-- The idealized kernel's result buffer ends at the network of the arguments' launch contents. -/
theorem result : W9 m ρ c (Proc.devRef .tc main_v65)
    = Cert.Gcn.net (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  rw [last, product1, middle, product0]
  rfl

end Cert.KernelIdeal.NetValue

end
-- ==== Proof.lean ====
/-
  A two-layer graph convolution: the kernel's program against its jnp reference, over the extended reals.

  Both programs compute  z = relu(Â · relu(Â · (x·W₁) + b₁) · W₂ + b₂),  Â the degree-normalised adjacency with self
  loops, applied as gather – scale – scatter-add along the edge list. They are the same host operations, line for line,
  except for the two matrix products: the reference takes each as one `dot_general`, the kernel's program as a
  pallas_call that walks 50 blocks of 2000 rows, rounds both operands to bf16 and multiplies on the matrix unit into a
  zero accumulator. At the extended reals a change of float format is the identity and both kinds of product are the
  plain sum Σₖ a(p,k)·b(k,q), so each pallas_call leaves exactly the array the `dot_general` computes (Blocks0.lean,
  Blocks1.lean), and everything around the products is shared and never opened (Layers.lean). No law of arithmetic beyond
  0 + s = s is used, so the finiteness of the inputs plays no part in the value claim.

  The claims: the three programs run, terminate and keep their arguments (the kernel's two by the generated frame
  certificates, the reference's by its run); the idealization rewrote nothing, so `preserves` is `True`; and the two
  idealized programs, from memories agreeing on the arguments, end with the same result array, the network of the
  arguments (KernelValue.lean for the kernel's program, RefValue.lean for the reference).
-/
import proofs.«103599_j23871428231490_1_alg».proof.Defs
import proofs.«103599_j23871428231490_1_alg».proof.Proof.Gen.Kernel
import proofs.«103599_j23871428231490_1_alg».proof.Proof.Gen.Kernel.Frame
import proofs.«103599_j23871428231490_1_alg».proof.Proof.Gen.KernelIdeal
import proofs.«103599_j23871428231490_1_alg».proof.Proof.Gen.KernelIdeal.Frame
import proofs.«103599_j23871428231490_1_alg».proof.Proof.Gen.ReferenceIdeal
import proofs.«103599_j23871428231490_1_alg».proof.Proof.Gen.Pre_finite_inputs
import proofs.«103599_j23871428231490_1_alg».proof.Proof.RefRun
import proofs.«103599_j23871428231490_1_alg».proof.Proof.RefValue
import proofs.«103599_j23871428231490_1_alg».proof.Proof.KernelRun
import proofs.«103599_j23871428231490_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the network of the arguments in their
    result arrays. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result m ρ c), (h c).2⟩)
      (Cert.KernelIdeal.GcnRun.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.NetValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
